-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel

variable [Facts]

def fn {F : FTy → Type} [FloatOps F] (main_arg0 : FVec F S128x64x32x32 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  main_v3
-- ==== Kernel.lean ====
abbrev S128x64x32x32 : Shape := ⟨4, ![128, 64, 32, 32]⟩
abbrev S65536x128 : Shape := ⟨2, ![65536, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 4
  | .vmem => 4
  | .smem => 0
  | _ => 0

abbrev bufTy : (tb : Table) → Fin (tcTables nBuf tb) → BufTy
  | .hbm, ⟨0, _⟩ => ⟨S128x64x32x32, .f32⟩
  | .hbm, ⟨1, _⟩ => ⟨S65536x128, .f32⟩
  | .hbm, ⟨2, _⟩ => ⟨S65536x128, .f32⟩
  | .hbm, ⟨3, _⟩ => ⟨S128x64x32x32, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x64x32x32_S65536x128 : S128x64x32x32.ShapeCasts S65536x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S8192x128_d1_w32 : S8192x128.Iotas .tc 32 [1]
  reduces_S8192x128_S8192 : S8192x128.Reduces [1] S8192
  shapeCasts_S8192_S8192x1 : S8192.ShapeCasts S8192x1
  shapeCasts_S8192x1_S8192x1 : S8192x1.ShapeCasts S8192x1
  broadcasts_S8192x1_S8192x128 : S8192x1.Broadcasts S8192x128
  shapeCasts_S65536x128_S128x64x32x32 : S65536x128.ShapeCasts S128x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x64x32x32 : Shape := ⟨4, ![128, 64, 32, 32]⟩
abbrev S65536x128 : Shape := ⟨2, ![65536, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S4096x128 : Shape := ⟨2, ![4096, 128]⟩

abbrev nBuf : Space → Nat
  | .hbm => 29
  | .vmem => 5
  | .smem => 0
  | _ => 0

abbrev bufTy : (tb : Table) → Fin (tcTables nBuf tb) → BufTy
  | .hbm, ⟨0, _⟩ => ⟨S128x64x32x32, .f32⟩
  | .hbm, ⟨1, _⟩ => ⟨S65536x128, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S1x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128x128, .f32⟩
  | .hbm, ⟨27, _⟩ => ⟨S65536x128, .f32⟩
  | .hbm, ⟨28, _⟩ => ⟨S128x64x32x32, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x64x32x32_S65536x128 : S128x64x32x32.ShapeCasts S65536x128
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S65536x128_S128x64x32x32 : S65536x128.ShapeCasts S128x64x32x32
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Finite.lean ====
/-
  The precondition read back: when the test "every |entry| is below +∞" answers one, every entry of the argument
  is a real number — neither infinity.
-/
import proofs.«167087_g2000006333966860_pallasbulk_249_2_alg».proof.Defs
import proofs.«167087_g2000006333966860_pallasbulk_249_2_alg».proof.Proof.Gen.Pre_finite_inputs
import proofs.«167087_g2000006333966860_pallasbulk_249_2_alg».proof.Proof.Gen.KernelIdeal
import Idealize.ShloMosaic.Lib.ReduceAll
import Idealize.ShloMosaic.Lib.ValueIdx

noncomputable section

namespace Cert.KernelSide.Finite

open Idealize.ShloMosaic Idealize.ShloMosaic.ValueIdx Idealize.SL.Sem

/-- The word 0x7F800000 is +∞. -/
theorem ofBits_inf : Ideal.ofBits .f32 0x7F800000#32 = ⊤ := by
  simp [Ideal.ofBits, Ideal.ieee]

/-- An extended real whose absolute value is below +∞ is a real number. -/
theorem real_of_abs_lt_top (x : EReal) (h : max x (-x) < ⊤) : ∃ y : ℝ, x = (y : EReal) := by
  induction x using EReal.rec with
  | bot => simp at h
  | coe y => exact ⟨y, rfl⟩
  | top => simp at h

instance : Subsingleton Cert.Pre_finite_inputs.S_.Idx := ⟨fun a b => funext fun d => d.elim0⟩

/-- If the finiteness test of an array answers one, every entry of the array is a real number. -/
theorem entries_real (x : FVec Ideal Cert.Pre_finite_inputs.S128x64x32x32 .f32)
    (h : Cert.Pre_finite_inputs.fn (F := Ideal) x = fun _ => 1#1) (i : Cert.Pre_finite_inputs.S128x64x32x32.Idx) :
    ∃ y : ℝ, x i = (y : EReal) := by
  have h0 := congrFun h ix0
  dsimp only [Cert.Pre_finite_inputs.fn] at h0
  have h1 := Host.reduce_andi_all _ _ _ _ _ h0 i
  change Ideal.cmp .olt (max (x i) (-(x i))) (Ideal.ofBits .f32 0x7F800000#32) = 1#1 at h1
  rw [ofBits_inf] at h1
  unfold Ideal.cmp at h1
  apply real_of_abs_lt_top
  by_contra hn
  simp [hn] at h1

/-- Under the certificate's precondition every entry of the kernel's argument is a real number. -/
theorem arg_real (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x64x32x32.Idx) :
    ∃ y : ℝ, (m ((c.tc : Thread Cert.KernelIdeal.nD Cert.KernelIdeal.τ).loc Cert.KernelIdeal.main_arg0) : Cert.KernelIdeal.S128x64x32x32.Idx → EReal) i = (y : EReal) :=
  entries_real _ (hpre c) i

end Cert.KernelSide.Finite

end
-- ==== Proof.RowNorm.lean ====
/-
  Root-mean-square normalisation of the two halves of a 128-entry row, on the extended reals.

  A row x of 128 entries is two groups of 64 consecutive entries.  Every entry is scaled by the reciprocal square root
  of (the sum of the squares of its own group) · c + e, for two fixed numbers c and e (the words of 1/64 and of the
  small additive term, kept as their bit patterns: both sides of the certificate carry the same words).  This file
  states that row function (`rowNorm`), the array function that applies it to every row of a 65536 × 128 array (`G`),
  the whole result on a 128 × 64 × 32 × 32 array viewed as such rows (`whole`), and the two ways a row's group sum
  is reached:
    • as the sum of all squares minus the sum of the squares of the first 64 entries, for the second group — equal to
      the group's own sum when every entry is a real number (`∞ - ∞` is not a difference one can cancel);
    • as the sum over all entries of the square times a 0/1 weight that is 1 exactly inside the group — equal with no
      condition, since a product with 0 is 0 on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowNorm

open Idealize.ShloMosaic Idealize.ShloMosaic.ValueIdx

/-- The shape of the argument and of the result. -/
abbrev S4 : Shape := ⟨4, ![128, 64, 32, 32]⟩
/-- The same elements as 65536 rows of 128. -/
abbrev S2 : Shape := ⟨2, ![65536, 128]⟩

theorem cast42 : S4.ShapeCasts S2 := by decide
theorem cast24 : S2.ShapeCasts S4 := by decide

/-- The factor 1/64, as its word. -/
def scale : EReal := Ideal.ofBits .f32 0x3C800000#32
/-- The additive term under the root, as its word. -/
def eps : EReal := Ideal.ofBits .f32 0x3727C5AC#32

/-- The sum of the squares of the entries in the same group of 64 as entry `j`. -/
def halfSum (x : Fin 128 → EReal) (j : Fin 128) : EReal :=
  ∑ k : Fin 128, if (k.val < 64 ↔ j.val < 64) then x k * x k else 0

/-- One entry of the normalised row. -/
def rowNorm (x : Fin 128 → EReal) (j : Fin 128) : EReal :=
  x j * Ideal.rsqrt (halfSum x j * scale + eps)

/-- Every row of a 65536 × 128 array normalised. -/
def G (X : S2.Idx → EReal) : S2.Idx → EReal :=
  fun i => rowNorm (fun k => X (ix2 (i 0) k)) (i 1)

theorem G_apply (X : S2.Idx → EReal) (p : Fin 65536) (q : Fin 128) :
    G X (ix2 p q) = rowNorm (fun k => X (ix2 p k)) q := rfl

/-- The whole result: the argument viewed as rows, normalised, viewed back. -/
def whole (x : S4.Idx → EReal) : S4.Idx → EReal :=
  shapeCast S4 (G (shapeCast S2 x cast42)) cast24

/-! ## The group sum as a difference of two sums -/

/-- The sum of all 128 squares. -/
def allSum (x : Fin 128 → EReal) : EReal := ∑ k : Fin 128, x k * x k
/-- The sum of the squares of the first 64 entries, the others replaced by zero. -/
def lowSum (x : Fin 128 → EReal) : EReal := ∑ k : Fin 128, if k.val < 64 then x k * x k else 0

/-- The row as a kernel computes it from two lane sums: the first group is scaled by the root of its own sum, the second
    by the root of the difference of the full sum and the first group's. -/
def diffRow (x : Fin 128 → EReal) (j : Fin 128) : EReal :=
  x j * (if j.val < 64 then Ideal.rsqrt (lowSum x * scale + eps) else Ideal.rsqrt ((allSum x - lowSum x) * scale + eps))

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- For the first group the group sum is the masked sum. -/
theorem halfSum_low (x : Fin 128 → EReal) (j : Fin 128) (hj : j.val < 64) : halfSum x j = lowSum x := by
  unfold halfSum lowSum
  refine Finset.sum_congr rfl fun k _ => ?_
  simp only [hj, iff_true]

/-- For the second group, on real entries, the group sum is the full sum less the first group's. -/
theorem halfSum_high (x : Fin 128 → EReal) (hx : ∀ k, ∃ y : ℝ, x k = (y : EReal)) (j : Fin 128) (hj : ¬ j.val < 64) :
    halfSum x j = allSum x - lowSum x := by
  choose y hy using hx
  have e1 : allSum x = ((∑ k : Fin 128, y k * y k : ℝ) : EReal) := by
    unfold allSum
    rw [coe_sum]
    refine Finset.sum_congr rfl fun k _ => ?_
    rw [hy k, EReal.coe_mul]
  have e2 : lowSum x = ((∑ k : Fin 128, (if k.val < 64 then y k * y k else 0) : ℝ) : EReal) := by
    unfold lowSum
    rw [coe_sum]
    refine Finset.sum_congr rfl fun k _ => ?_
    rw [hy k]
    split_ifs
    · rw [EReal.coe_mul]
    · rw [EReal.coe_zero]
  have e3 : halfSum x j = ((∑ k : Fin 128, (if k.val < 64 then 0 else y k * y k) : ℝ) : EReal) := by
    unfold halfSum
    rw [coe_sum]
    refine Finset.sum_congr rfl fun k _ => ?_
    rw [hy k]
    simp only [hj, iff_false]
    split_ifs
    · rw [EReal.coe_zero]
    · rw [EReal.coe_mul]
  rw [e1, e2, e3, ← EReal.coe_sub, ← Finset.sum_sub_distrib]
  congr 1
  refine Finset.sum_congr rfl fun k _ => ?_
  split_ifs
  · ring
  · ring

/-- On real entries the two-sum form of the row is the normalised row. -/
theorem diffRow_eq (x : Fin 128 → EReal) (hx : ∀ k, ∃ y : ℝ, x k = (y : EReal)) (j : Fin 128) :
    diffRow x j = rowNorm x j := by
  unfold diffRow rowNorm
  by_cases hj : j.val < 64
  · rw [if_pos hj, halfSum_low x j hj]
  · rw [if_neg hj, halfSum_high x hx j hj]

/-! ## The group sum as a sum weighted by a 0/1 matrix -/

/-- The sum of the squares, each times the weight of its row `k` in column `j`. -/
def weightedSum (x : Fin 128 → EReal) (d : Fin 128 → Fin 128 → EReal) (j : Fin 128) : EReal :=
  ∑ k : Fin 128, x k * x k * d k j

/-- With the weight 1 inside the group of `j` and 0 outside it, the weighted sum is the group sum. -/
theorem weightedSum_eq (x : Fin 128 → EReal) (d : Fin 128 → Fin 128 → EReal)
    (hd : ∀ k j : Fin 128, d k j = if (k.val < 64 ↔ j.val < 64) then 1 else 0) (j : Fin 128) :
    weightedSum x d j = halfSum x j := by
  unfold weightedSum halfSum
  refine Finset.sum_congr rfl fun k _ => ?_
  rw [hd k j]
  split_ifs
  · rw [mul_one]
  · rw [mul_zero]

/-- The row as a kernel computes it from a product with the 0/1 matrix. -/
def weightedRow (x : Fin 128 → EReal) (d : Fin 128 → Fin 128 → EReal) (j : Fin 128) : EReal :=
  x j * Ideal.rsqrt (weightedSum x d j * scale + eps)

theorem weightedRow_eq (x : Fin 128 → EReal) (d : Fin 128 → Fin 128 → EReal)
    (hd : ∀ k j : Fin 128, d k j = if (k.val < 64 ↔ j.val < 64) then 1 else 0) (j : Fin 128) :
    weightedRow x d j = rowNorm x j := by
  unfold weightedRow rowNorm
  rw [weightedSum_eq x d hd j]

end Cert.RowNorm

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KernelBody.lean ====
/-
  One entry of what the kernel's body stores, from the block it loads: at row p and lane q of the block the stored
  value depends on row p only, and is that row scaled group by group — the first 64 lanes by the reciprocal root of
  (their sum of squares)/64 + e, the last 64 by the reciprocal root of (the full sum less the first group's)/64 + e.
-/
import proofs.«167087_g2000006333966860_pallasbulk_249_2_alg».proof.Proof.Gen.KernelIdeal.Skeleton
import proofs.«167087_g2000006333966860_pallasbulk_249_2_alg».proof.Proof.RowNorm
import proofs.«167087_g2000006333966860_pallasbulk_249_2_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelSide.Body

open Idealize.ShloMosaic Idealize.ShloMosaic.ValueIdx
open Cert.KernelIdeal Cert.KernelIdeal.Gen

/-- The comparison "lane < 64" on the lane's 32-bit word, decided over the 128 lanes. -/
theorem lane_lt : ∀ k : Fin 128, IntOp.cmpi .slt (BitVec.ofNat 32 k.val) 64#32 = if k.val < 64 then 1#1 else 0#1 := by
  decide +kernel

/-- A length-a array kept as a column reads, at (p, u), its entry p. -/
theorem col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem rsqrt_apply {s : Shape} {φ : FTy} (v : FVec Ideal s φ) (i : s.Idx) : rsqrt v i = Ideal.rsqrt (v i) := rfl

theorem cmpi_apply {s : Shape} {w : ℕ} (pr : CmpIPredicate) (x y : IVec s w) (i : s.Idx) :
    cmpi pr x y i = IntOp.cmpi pr (x i) (y i) := rfl

/-- The lane test of the body, as a function of the index. -/
theorem lane_vec : cmpi CmpIPredicate.slt (iota Kind.tc S8192x128 32 [1] iota_S8192x128_d1_w32) (broadcast S8192x128 64#32)
    = fun i => if (i 1).val < 64 then 1#1 else 0#1 := by
  funext i
  rw [cmpi_apply, iota_single_apply, broadcast_apply]
  exact lane_lt (i 1)

/-- Selecting by a bit that is one exactly when `c` holds is the conditional on `c`. -/
theorem select_ite {α : Type} (c : Prop) [Decidable c] (a b : α) :
    Scalar.select (if c then 1#1 else 0#1) a b = if c then a else b := by
  split_ifs
  · exact select_one a b
  · exact select_zero a b

/-- The stored value at (p, q) is the two-sum form of row p's normalisation at lane q. -/
theorem pay_apply (x0 : Vec Ideal S8192x128 .f32) (p : Fin 8192) (q : Fin 128) :
    k0_pay1 (F := Ideal) x0 (ix2 p q) = Cert.RowNorm.diffRow (fun k => x0 (ix2 p k)) q := by
  unfold k0_pay1
  simp only [shapeCast_self]
  rw [lane_vec, Cert.LibRowOps.rowsum, Cert.LibRowOps.rowsum]
  simp only [mulf_apply, select_apply, Cert.LibRowOps.col_bcast_apply, rsqrt_apply, addf_apply, subf_apply, broadcast_apply,
    col_apply, select_ite]
  unfold Cert.RowNorm.diffRow Cert.RowNorm.lowSum Cert.RowNorm.allSum Cert.RowNorm.scale Cert.RowNorm.eps
  simp only [Ideal.ofBits_def, Ideal.ofBits_zero_f32]

end Cert.KernelSide.Body

end
-- ==== Proof.KernelHost.lean ====
/-
  What the kernel's region finds in the array it reads: the argument viewed as 65536 rows of 128.
-/
import proofs.«167087_g2000006333966860_pallasbulk_249_2_alg».proof.Proof.Gen.KernelIdeal.Frame
import proofs.«167087_g2000006333966860_pallasbulk_249_2_alg».proof.Proof.RowNorm
import Idealize.ShloMosaic.Lib.StableHlo.Run

noncomputable section

namespace Cert.KernelSide.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The region finds the argument viewed as rows. -/
theorem V_rows (c : Dev nD) :
    (V m c main_v0 : S65536x128.Idx → EReal) = shapeCast S65536x128 (m ((c : Thread nD τ).loc main_arg0)) Cert.RowNorm.cast42 := by
  show StableHlo.after hostOps0 (fun b => m (c, b)) (Proc.devRef .tc main_v0) = _
  after_results
  rfl

end Cert.KernelSide.Host

end
-- ==== Proof.KernelArray.lean ====
/-
  From the kernel's blocks to its whole result.  The grid has 8 points; point t reads rows 8192·t … 8192·t + 8191 of
  the argument viewed as 65536 rows of 128 and writes the same rows of the result.  Row p of the block at point t is
  row 8192·t + p of the array, and the body's stored value at (p, q) depends on that row only, so every block written
  back is the corresponding block of ONE array function: every row normalised group by group.  The blocks cover the
  array (row r lies in block r / 8192), so after the last point the result array is that function of the argument;
  the final reshape views it back as 128 × 64 × 32 × 32.
  The entries are real numbers under the precondition, which is what lets the second group's sum be reached as a
  difference of two lane sums.
-/
import proofs.«167087_g2000006333966860_pallasbulk_249_2_alg».proof.Proof.Gen.KernelIdeal.Frame
import proofs.«167087_g2000006333966860_pallasbulk_249_2_alg».proof.Proof.KernelBody
import proofs.«167087_g2000006333966860_pallasbulk_249_2_alg».proof.Proof.KernelHost
import proofs.«167087_g2000006333966860_pallasbulk_249_2_alg».proof.Proof.RowNorm
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelSide

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 8 points: both windows' block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem t_lt (t : Fin cfg0.N) : t.val < 8 := by
  have h := t.isLt
  have h8 : cfg0.N = 8 := N_0
  omega

/-- The row of the array that row p of the block at point t is. -/
def rowOf (t : Fin cfg0.N) (p : Fin 8192) : Fin 65536 :=
  ⟨t.val * 8192 + p.val, by have := t_lt t; have := p.isLt; omega⟩

/-- Where entry (p, q) of the output block at point t lies in the array. -/
theorem emb_out (t : Fin cfg0.N) (p : Fin 8192) (q : Fin 128) :
    ((cfg0.win 1).blk t).view.emb (ix2 p q) = ix2 (rowOf t p) q := by
  obtain ⟨e0, e1, e2, e3⟩ := idx_facts t
  funext a; apply Fin.ext
  match a with
  | ⟨0, _⟩ => show win0_1.index t (0 : Fin 2) * 8192 + 1 * p.val = t.val * 8192 + p.val; omega
  | ⟨1, _⟩ => show win0_1.index t (1 : Fin 2) * 128 + 1 * q.val = q.val; omega

/-- Where entry (p, k) of the input block at point t lies in the array. -/
theorem emb_in (t : Fin cfg0.N) (p : Fin 8192) (k : Fin 128) :
    ((cfg0.win 0).blk t).view.emb (ix2 p k) = ix2 (rowOf t p) k := by
  obtain ⟨e0, e1, e2, e3⟩ := idx_facts t
  funext a; apply Fin.ext
  match a with
  | ⟨0, _⟩ => show win0_0.index t (0 : Fin 2) * 8192 + 1 * p.val = t.val * 8192 + p.val; omega
  | ⟨1, _⟩ => show win0_0.index t (1 : Fin 2) * 128 + 1 * k.val = k.val; omega

/-- What point t writes back is block t of the row-normalised array. -/
theorem flushed_eq (c : Dev nD) (hfin : ∀ i, ∃ y : ℝ, (V m c main_v0 : S65536x128.Idx → EReal) i = (y : EReal)) (t : Fin cfg0.N) :
    (dats m 0 c).flushed 1 t = ((cfg0.win 1).blk t).view.read (Elt Ideal) (Cert.RowNorm.G (V m c main_v0)) := by
  show (cfg0.win 1).cut (grid0.coords t) ((dats m 0 c).after 1 t) = _
  rw [after0_1]
  unfold out0_1
  rw [View.canon_unit_zero hz]
  simp only [View.ld_unit_zero (S := S8192x128) hz]
  funext j
  obtain ⟨p, q, rfl⟩ : ∃ (p : Fin 8192) (q : Fin 128), j = ix2 p q := ⟨j 0, j 1, eq_ix2 j⟩
  show k0_pay1 (iblk m c 0 t) (ix2 p q) = Cert.RowNorm.G (V m c main_v0) (((cfg0.win 1).blk t).view.emb (ix2 p q))
  refine (Body.pay_apply (iblk m c 0 t) p q).trans ?_
  have hrow : (fun k : Fin 128 => iblk m c 0 t (ix2 p k)) = fun k => (V m c main_v0 : S65536x128.Idx → EReal) (ix2 (rowOf t p) k) := by
    funext k
    show V m c main_v0 (((cfg0.win 0).blk t).view.emb (ix2 p k)) = _
    rw [emb_in t p k]
  rw [hrow, emb_out t p q, Cert.RowNorm.G_apply]
  exact Cert.RowNorm.diffRow_eq _ (fun k => hfin _) q

/-- An index of the array is in point t's block iff each coordinate is in the block's range on its axis. -/
theorem mem_blk (t : Fin cfg0.N) (i : S65536x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v1).slice (win0_1.rect t)).set ↔ _
  rw [View.set_slice_whole, Rect.mem_set_unit]
  exact Iff.rfl

/-- Every index of the array lies in the block of the point its row falls in: row r is in block r / 8192. -/
theorem cover (i : S65536x128.Idx) :
    ∃ t : Fin cfg0.N, (cfg0.win 1).flush t = true ∧ i ∈ ((cfg0.win 1).blk t).view.set := by
  have hi0 : (i 0).val < 65536 := (i 0).isLt
  have hi1 : (i 1).val < 128 := (i 1).isLt
  have h8 : cfg0.N = 8 := N_0
  have ht : (i 0).val / 8192 < cfg0.N := by omega
  obtain ⟨e0, e1, e2, e3⟩ := idx_facts ⟨(i 0).val / 8192, ht⟩
  refine ⟨⟨(i 0).val / 8192, ht⟩, flush0_1 _, ?_⟩
  rw [mem_blk]
  intro a
  match a with
  | ⟨0, _⟩ =>
    show win0_1.index ⟨(i 0).val / 8192, ht⟩ (0 : Fin 2) * 8192 ≤ (i 0).val ∧ (i 0).val < win0_1.index ⟨(i 0).val / 8192, ht⟩ (0 : Fin 2) * 8192 + 8192
    rw [e2]
    show (i 0).val / 8192 * 8192 ≤ (i 0).val ∧ (i 0).val < (i 0).val / 8192 * 8192 + 8192
    omega
  | ⟨1, _⟩ =>
    show win0_1.index ⟨(i 0).val / 8192, ht⟩ (1 : Fin 2) * 128 ≤ (i 1).val ∧ (i 1).val < win0_1.index ⟨(i 0).val / 8192, ht⟩ (1 : Fin 2) * 128 + 128
    rw [e3]
    omega

/-- The result array after the last point: every row of what the region found, normalised. -/
theorem final (c : Dev nD) (hfin : ∀ i, ∃ y : ℝ, (V m c main_v0 : S65536x128.Idx → EReal) i = (y : EReal)) :
    (dats m 0 c).arrAt 1 cfg0.N = Cert.RowNorm.G (V m c main_v0) :=
  (dats m 0 c).arrAt_eq_of_cover 1 (Cert.RowNorm.G (V m c main_v0)) (fun t _ => flushed_eq m c hfin t) cover

/-- The rows the region finds are real when the argument's entries are: a view of an array holds the array's entries. -/
theorem rows_real (c : Dev nD)
    (harg : ∀ i, ∃ y : ℝ, (m ((c : Thread nD τ).loc main_arg0) : S128x64x32x32.Idx → EReal) i = (y : EReal)) :
    ∀ i, ∃ y : ℝ, (V m c main_v0 : S65536x128.Idx → EReal) i = (y : EReal) := by
  intro i
  rw [Host.V_rows m c]
  exact harg _

/-- The final view of the result array, after the host's last operation. -/
theorem tail_eq (c : Dev nD)
    (harg : ∀ i, ∃ y : ℝ, (m ((c : Thread nD τ).loc main_arg0) : S128x64x32x32.Idx → EReal) i = (y : EReal)) :
    Pipeline.afterTail₀ cfgs (dats m) 0 (V0 m) [hostOps1] c main_v2
      = Cert.RowNorm.whole (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = Cert.RowNorm.G (V m c main_v0) :=
    (Pipeline.withArrays_arr spec0 launch0.win.arr_inj c _ _ 1).trans (final m c (rows_real m c harg))
  rw [hw, Host.V_rows m c]
  rfl

/-- The kernel's run, read: the result is every row of the argument (viewed as 65536 rows of 128) normalised group
    by group, viewed back; the argument is unchanged. -/
theorem run (harg : ∀ (c : Dev nD) i, ∃ y : ℝ, (m ((c : Thread nD τ).loc main_arg0) : S128x64x32x32.Idx → EReal) i = (y : EReal)) :
    θ_run (defs (F := Ideal)) (onTc (τ := τ) (main (F := Ideal))) ⟨m, fun _ => 0, ρ⟩ (fun r => ∀ c : Dev nD,
      r.2.mem ((c.tc : Thread nD τ).loc main_v2) = Cert.RowNorm.whole (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v2 (Pipeline.mem_restRefs_of main_v2 (by decide) (by decide))).trans (tail_eq m c (harg c)),
       ((h c).2 main_arg0 (Pipeline.mem_restRefs_of main_arg0 (by decide) (by decide))).trans (W_main_arg0 m (dats m) c)⟩)
    (run_main m ρ)

end Cert.KernelSide

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.RefBody.lean ====
/-
  What the reference's kernel body computes for one entry of a block of 4096 rows.

  The body squares the block entry by entry, multiplies the squares by the 128 × 128 matrix it is given (a product into
  a zero accumulator), scales by the word of 1/64, adds the small term, takes the reciprocal square root and multiplies
  the block by it.  At entry (p, q) the matrix product is the sum over k of x(p, k)² · d(k, q): only row p of the block
  enters, and the result is the row normalised with the matrix as the weight (`Cert.RowNorm.weightedRow`).
-/
import proofs.«167087_g2000006333966860_pallasbulk_249_2_alg».proof.Proof.Gen.ReferenceIdeal.Skeleton
import proofs.«167087_g2000006333966860_pallasbulk_249_2_alg».proof.Proof.RowNorm
import proofs.«167087_g2000006333966860_pallasbulk_249_2_alg».proof.Proof.LibMatmul
import Idealize.ShloMosaic.Lib.ValueIdx
import Idealize.ShloMosaic.Lib.Pipeline.Value
import Idealize.ShloMosaic.PureOps.Ideal.Laws

noncomputable section

open scoped BigOperators

namespace Cert.RefSide.B

open Idealize.ShloMosaic Idealize.ShloMosaic.ValueIdx
open Cert.ReferenceIdeal Cert.ReferenceIdeal.Gen

/-- The product of a block of squares with the weight matrix, into the zero accumulator, is the plain matrix product. -/
theorem product_eq (a : FVec Ideal S4096x128 .f32) (b : FVec Ideal S128x128 .f32) :
    matmul (F := Ideal) dot_S4096x128_S128x128_S4096x128_1_0_0_1_n_n (some .fp32) a b
        (constant (F := Ideal) S4096x128 .f32 0x00000000#32) = Cert.LibMatmul.MM a b :=
  Cert.LibMatmul.matmul_zero_eq dot_S4096x128_S128x128_S4096x128_1_0_0_1_n_n rfl rfl rfl rfl rfl rfl (some .fp32) a b

/-- Entry (p, q) of the body's result is entry q of row p of the block, normalised with the matrix as the weight. -/
theorem body_apply (x0 : Vec Ideal S4096x128 .f32) (x1 : Vec Ideal S128x128 .f32) (p : Fin 4096) (q : Fin 128) :
    Gen.k0_pay1 (F := Ideal) x0 x1 (ix2 p q)
      = Cert.RowNorm.weightedRow (fun k => x0 (ix2 p k)) (fun k j => x1 (ix2 k j)) q := by
  unfold Gen.k0_pay1
  -- the two reshapes to the same shape are the identity, and the product into zero is the matrix product
  rw [shapeCast_self x0, shapeCast_self x1, product_eq]
  -- every remaining operation acts entry by entry, the matrix product at (p, q) is the sum over k of
  -- x(p, k) · x(p, k) · d(k, q), and the two constants are the words of `scale` and `eps`
  rfl

end Cert.RefSide.B

end
-- ==== Proof.RefHost.lean ====
/-
  What the reference's kernel region finds in the two arrays it reads: the argument viewed as 65536 rows of 128, and
  the 128 × 128 matrix of zeros and ones whose entry (k, j) is one exactly when k and j lie in the same group of 64
  consecutive lanes (the host builds it from an iota, a floor division by 64 and a comparison of the quotients).
-/
import proofs.«167087_g2000006333966860_pallasbulk_249_2_alg».proof.Proof.Gen.ReferenceIdeal.Frame
import proofs.«167087_g2000006333966860_pallasbulk_249_2_alg».proof.Proof.RowNorm
import Idealize.ShloMosaic.Lib.StableHlo.Run
import Idealize.ShloMosaic.Lib.IdealHost

noncomputable section

namespace Cert.RefSide.Host

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

namespace A

/-! ## The floor-divided lane number, as 32-bit words

  The host divides the lane numbers 0 … 127 by 64 rounding toward minus infinity: the quotient rounded toward zero,
  less one where the signs of dividend and divisor differ and the remainder is not zero.  All of it is arithmetic on
  32-bit words; the divisor 64 is neither 0 nor -1, so the signed division is the plain one. -/

/-- The sign of a word: 0, 1 or -1. -/
def sgn (x : BitVec 32) : BitVec 32 := if x = 0 then 0 else if x.msb then -1 else 1

/-- The quotient by 64 rounded toward minus infinity, on one word. -/
def floorDiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- On the lane numbers below 128 the quotient is 0 on the first 64 and 1 on the others. -/
theorem floorDiv64_lane : ∀ k : Fin 128, floorDiv64 (BitVec.ofNat 32 k.val) = if k.val < 64 then 0#32 else 1#32 := by
  decide +kernel

/-- The bit of "equal", read as a number, on the four pairs of quotients that occur. -/
theorem eqBit_zero_zero : (IntOp.cmpi .eq 0#32 0#32).toNat = 1 := by decide
theorem eqBit_one_one : (IntOp.cmpi .eq 1#32 1#32).toNat = 1 := by decide
theorem eqBit_zero_one : (IntOp.cmpi .eq 0#32 1#32).toNat = 0 := by decide
theorem eqBit_one_zero : (IntOp.cmpi .eq 1#32 0#32).toNat = 0 := by decide

/-! ## The matrix as the host's operations build it -/

/-- A word repeated on all 128 lanes. -/
def rep (b : IVec S_ 32) : IVec S128 32 := broadcastInDim S128 ![] bcast_S_S128 b

/-- The lane numbers. -/
def lane : IVec S128 32 := iotaInDim S128 32 0

/-- The quotient rounded toward zero, lane by lane. -/
def truncQuot : IVec S128 32 := Host.divsi lane (rep (constantI S_ 32 64#32))

/-- Where the quotient rounded toward zero is one too large. -/
def adjust : IVec S128 1 :=
  andi (cmpi .ne (signi lane) (rep (signi (constantI S_ 32 64#32))))
    (cmpi .ne (Host.remsi lane (rep (constantI S_ 32 64#32))) (rep (constantI S_ 32 0#32)))

/-- The lane number floor-divided by 64, lane by lane. -/
def quot : IVec S128 32 := select adjust (subi truncQuot (rep (constantI S_ 32 1#32))) truncQuot

/-- The matrix: the quotient of the row number (the quotients laid down a column, repeated along the rows) compared with
    the quotient of the column number (laid along a row, repeated down the columns), the bit of the comparison read as a
    number. -/
def maskTerm : S128x128.Idx → EReal :=
  uitofp (F := Ideal) .f32
    (cmpi .eq
      (broadcastInDim S128x128 ![0, 1] bcast_S128x1_S128x128_0_1 (broadcastInDim S128x1 ![0] bcast_S128_S128x1_0 quot))
      (broadcastInDim S128x128 ![0, 1] bcast_S1x128_S128x128_0_1 (broadcastInDim S1x128 ![1] bcast_S128_S1x128_1 quot)))

/-- The region finds that matrix in the array of its second window: the host operations before the region, read one
    after the other at the buffers each writes, compose to it. -/
theorem V_mask_term (c : Dev nD) : (V m c main_v8 : S128x128.Idx → EReal) = maskTerm := by
  dsimp only [Gen.V, Gen.V0]
  simp only [Gen.hostOps0, Gen.hostOps0_1, Gen.hostOps0_2, List.flatten_cons, List.flatten_nil, List.append_nil,
    List.cons_append, List.nil_append]
  after_results_simp
  rfl

/-- Entry (k, j) of the matrix is the bit of "the quotients of k and of j are equal", as a number: every operation is
    entry by entry, a repetition along an axis reads the other axis's coordinate, and the iota reads the lane number. -/
theorem maskTerm_apply (k j : Fin 128) :
    maskTerm (ix2 k j)
      = (((IntOp.cmpi .eq (floorDiv64 (BitVec.ofNat 32 k.val)) (floorDiv64 (BitVec.ofNat 32 j.val))).toNat : ℝ) : EReal) :=
  rfl

end A

/-- The region finds the argument viewed as rows: the first host operation reshapes the argument into that array and no
    later one writes it. -/
theorem V_rows (c : Dev nD) :
    (V m c main_v0 : S65536x128.Idx → EReal) = shapeCast S65536x128 (m ((c : Thread nD τ).loc main_arg0)) Cert.RowNorm.cast42 := by
  dsimp only [Gen.V, Gen.V0]
  simp only [Gen.hostOps0, Gen.hostOps0_1, Gen.hostOps0_2, List.flatten_cons, List.flatten_nil, List.append_nil,
    List.cons_append, List.nil_append]
  after_results_simp
  rfl

/-- The region finds the matrix of the relation "in the same group of 64 lanes", as zeros and ones. -/
theorem V_mask (c : Dev nD) (k j : Fin 128) :
    (V m c main_v8 : S128x128.Idx → EReal) (ix2 k j) = (if (k.val < 64 ↔ j.val < 64) then (1 : EReal) else 0) := by
  refine (congrFun (A.V_mask_term m c) (ix2 k j)).trans ?_
  rw [A.maskTerm_apply, A.floorDiv64_lane k, A.floorDiv64_lane j]
  by_cases hk : k.val < 64 <;> by_cases hj : j.val < 64
  · rw [if_pos hk, if_pos hj, if_pos (iff_of_true hk hj), A.eqBit_zero_zero, Nat.cast_one, EReal.coe_one]
  · rw [if_pos hk, if_neg hj, if_neg (fun h => hj (h.mp hk)), A.eqBit_zero_one, Nat.cast_zero, EReal.coe_zero]
  · rw [if_neg hk, if_pos hj, if_neg (fun h => hk (h.mpr hj)), A.eqBit_one_zero, Nat.cast_zero, EReal.coe_zero]
  · rw [if_neg hk, if_neg hj, if_pos (iff_of_false hk hj), A.eqBit_one_one, Nat.cast_one, EReal.coe_one]

end Cert.RefSide.Host

end
-- ==== Proof.RefArray.lean ====
/-
  The reference program's result as one function of its argument.

  The program views its argument, 128 × 64 × 32 × 32 numbers, as 65536 rows of 128, and hands the rows to a kernel in
  16 blocks of 4096 consecutive rows; with every block the kernel receives the whole 128 × 128 matrix of zeros and ones
  that relates two lanes of the same group of 64.  The kernel's body normalises each row of its block
  (`Cert.RefSide.B.body_row`), a row of block t being row 4096 · t + p of the array, so block t of the output array is
  block t of the row-normalised array; the 16 blocks cover the 65536 rows, so the output array is the row-normalised
  array; and the program's last step views it as 128 × 64 × 32 × 32 again: the result is `Cert.RowNorm.whole` of the
  argument, and the argument is left as it was.
-/
import proofs.«167087_g2000006333966860_pallasbulk_249_2_alg».proof.Proof.Gen.ReferenceIdeal.Frame
import proofs.«167087_g2000006333966860_pallasbulk_249_2_alg».proof.Proof.RefBody
import proofs.«167087_g2000006333966860_pallasbulk_249_2_alg».proof.Proof.RefHost
import proofs.«167087_g2000006333966860_pallasbulk_249_2_alg».proof.Proof.RowNorm

set_option maxRecDepth 16384

noncomputable section

namespace Cert.RefSide

open Idealize.ShloMosaic Idealize.ShloMosaic.TcCoe Idealize.ShloMosaic.ValueIdx Idealize.SL.Sem
open Cert.ReferenceIdeal Cert.ReferenceIdeal.Gen
open Idealize.ShloMosaic.Pipeline (Dat)

namespace B

variable (m : (ℓ : Loc nD τ sig) → Buf (Elt Ideal) ℓ)

/-! ## Where the blocks sit -/

/-- The body reads and writes its buffers from their first entry. -/
theorem zeros : (![0, 0] : Fin 2 → Nat) = fun _ => 0 := funext fun a => by fin_cases a <;> rfl

/-- The block indices at point `t`, decided over the 16 points: the row blocks of the input and of the output are
    block `t` of their arrays (block column 0), and the matrix is its own only block at every point. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row `p` of the block of point `t` is row `4096 · t + p` of the array. -/
def rowAt (t : Fin cfg0.N) (p : Fin 4096) : Fin 65536 :=
  ⟨t.val * 4096 + p.val, by have h1 := t.isLt; have h2 := p.isLt; have h3 : cfg0.N = 16 := N_0; omega⟩

/-- Entry (p, q) of the output's block at point `t` is entry (4096 · t + p, q) of the output array: along each axis the
    place in the array is the block index times the block's extent plus the place inside the block. -/
theorem out_emb (t : Fin cfg0.N) (p : Fin 4096) (q : Fin 128) :
    ((cfg0.win 2).blk t).view.emb (ix2 p q) = ix2 (rowAt t p) q := by
  obtain ⟨e0, e1, e2, e3, e4, e5⟩ := idx_facts t
  funext a; apply Fin.ext
  match a with
  | ⟨0, _⟩ => show win0_2.index t (0 : Fin 2) * 4096 + 1 * p.val = t.val * 4096 + p.val; omega
  | ⟨1, _⟩ => show win0_2.index t (1 : Fin 2) * 128 + 1 * q.val = q.val; omega

/-- The input's block at point `t` sits in the array of rows where the output's block sits in its array. -/
theorem in_emb (t : Fin cfg0.N) (p : Fin 4096) (q : Fin 128) :
    ((cfg0.win 0).blk t).view.emb (ix2 p q) = ix2 (rowAt t p) q := by
  obtain ⟨e0, e1, e2, e3, e4, e5⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 128 + 1 * q.val = q.val; omega

/-- The matrix's block at every point is the whole matrix. -/
theorem mask_emb (t : Fin cfg0.N) (k j : Fin 128) :
    ((cfg0.win 1).blk t).view.emb (ix2 k j) = ix2 k j := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 128 + 1 * j.val = j.val; omega

/-! ## One block -/

/-- With the matrix of the relation "in the same group of 64 lanes" as its second operand, the body normalises each
    row of its block: the weighted sum of the squares is the sum over the entry's own group. -/
theorem body_row (x0 : Vec Ideal S4096x128 .f32) (x1 : Vec Ideal S128x128 .f32)
    (hx1 : ∀ k j : Fin 128, x1 (ix2 k j) = if (k.val < 64 ↔ j.val < 64) then (1 : EReal) else 0)
    (p : Fin 4096) (q : Fin 128) :
    k0_pay1 (F := Ideal) x0 x1 (ix2 p q) = Cert.RowNorm.rowNorm (fun k => x0 (ix2 p k)) q :=
  (body_apply x0 x1 p q).trans (Cert.RowNorm.weightedRow_eq _ _ hx1 q)

/-- What point `t` writes back is block `t` of the row-normalised array: entry (p, q) of the body's result depends on
    row p of the input block only, which is row 4096 · t + p of the array of rows, the row the entry is written to. -/
theorem flushed_eq (c : Dev nD) (t : Fin cfg0.N) :
    (dats m 0 c).flushed 2 t = ((cfg0.win 2).blk t).view.read (Elt Ideal) (Cert.RowNorm.G (V m c main_v0)) := by
  show (cfg0.win 2).cut (grid0.coords t) ((dats m 0 c).after 2 t) = _
  rw [after0_2]
  unfold out0_2
  rw [View.canon_unit_zero zeros]
  simp only [View.ld_unit_zero (S := S4096x128) zeros, View.ld_unit_zero (S := S128x128) zeros]
  funext j
  obtain ⟨p, q, rfl⟩ : ∃ (p : Fin 4096) (q : Fin 128), j = ix2 p q := ⟨j 0, j 1, eq_ix2 j⟩
  show k0_pay1 (F := Ideal) (iblk m c 0 t) (iblk m c 1 t) (ix2 p q)
    = Cert.RowNorm.G (V m c main_v0) (((cfg0.win 2).blk t).view.emb (ix2 p q))
  rw [out_emb t p q, Cert.RowNorm.G_apply]
  refine (body_row (iblk m c 0 t) (iblk m c 1 t) ?_ p q).trans ?_
  · -- the second operand is the matrix of the relation
    intro k j
    show V m c main_v8 (((cfg0.win 1).blk t).view.emb (ix2 k j)) = _
    rw [mask_emb t k j]
    exact Host.V_mask m c k j
  · -- row p of the input block is row 4096 · t + p of the array of rows
    refine congrArg (fun f : Fin 128 → EReal => Cert.RowNorm.rowNorm f q) (funext fun k => ?_)
    show V m c main_v0 (((cfg0.win 0).blk t).view.emb (ix2 p k)) = _
    rw [in_emb t p k]

/-! ## The sixteen blocks cover the array -/

/-- An entry of the output array is in point `t`'s block iff each coordinate is in the block's range on its axis. -/
theorem mem_blk (t : Fin cfg0.N) (i : S65536x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v9).slice (win0_2.rect t)).set ↔ _
  rw [View.set_slice_whole, Rect.mem_set_unit]
  exact Iff.rfl

/-- Row r lies in the block of point r / 4096, and every point writes its block back. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 16 := N_0
  obtain ⟨t, ht⟩ : ∃ t : Fin cfg0.N, t.val = (i 0).val / 4096 := ⟨⟨(i 0).val / 4096, by omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- After the last point the output array is the row-normalised array of rows. -/
theorem final (c : Dev nD) : (dats m 0 c).arrAt 2 cfg0.N = Cert.RowNorm.G (V m c main_v0) :=
  (dats m 0 c).arrAt_eq_of_cover 2 (Cert.RowNorm.G (V m c main_v0)) (fun t _ => flushed_eq m c t) cover

/-! ## The last step: the rows viewed as the argument's shape again -/

/-- The program's result: the output array viewed as 128 × 64 × 32 × 32, the array of rows being the argument viewed as
    65536 × 128. -/
theorem tail_eq (c : Dev nD) :
    Pipeline.afterTail₀ cfgs (dats m) 0 (V0 m) [hostOps1] c main_v10
      = Cert.RowNorm.whole (m ((c : Thread nD τ).loc main_arg0)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = Cert.RowNorm.G (V m c main_v0) :=
    (Pipeline.withArrays_arr spec0 launch0.win.arr_inj c _ _ 2).trans (final m c)
  show shapeCast S128x64x32x32 (Pipeline.withArrays (cfgs 0).spec c (V0 m c) (fun w => (dats m 0 c).arrAt w (cfgs 0).N)
      (Proc.devRef .tc main_v9)) shapeCasts_S65536x128_S128x64x32x32 = _
  rw [e, Host.V_rows m c]
  rfl

end B

/-- Every execution of the reference program ends with its result the row-normalised argument and the argument as it
    was. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = Cert.RowNorm.whole (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v10 (Pipeline.mem_restRefs_of main_v10 (by decide) (by decide))).trans (B.tail_eq m c),
       ((h c).2 main_arg0 (Pipeline.mem_restRefs_of main_arg0 (by decide) (by decide))).trans (W_main_arg0 m (dats m) c)⟩)
    (run_main m ρ)

end Cert.RefSide

end
-- ==== Proof.lean ====
/-
  The certificate of a root-mean-square normalisation over groups of 64 lanes.

  Both programs view the argument f32[128, 64, 32, 32] as 65536 rows of 128 lanes, normalise every row group by group
  — a row is two groups of 64 consecutive lanes, and each entry is multiplied by the reciprocal square root of
  (the sum of the squares of its group) · 1/64 + e — and view the result back.  They differ in how a group's sum of
  squares is reached.  The kernel takes two lane sums per row, the full one and the one over the first 64 lanes (the
  others replaced by zero), and uses their difference for the second group; on the extended reals that difference is
  the second group's own sum exactly when the entries are real numbers, which the precondition gives.  The reference
  multiplies the squares by a 128 × 128 matrix of zeros and ones, one where two lanes share a group, which is the
  group's sum with no condition.  Its grid is 16 blocks of 4096 rows against the kernel's 8 blocks of 8192; neither
  tiling matters, since each written row depends on the same row of the argument only.

  The three frames are the generated ones.  The idealisation rewrote nothing, so its conjunct is trivial.  The value
  claim pairs the two runs, each read as the same function `Cert.RowNorm.whole` of the argument.
-/
import proofs.«167087_g2000006333966860_pallasbulk_249_2_alg».proof.Defs
import proofs.«167087_g2000006333966860_pallasbulk_249_2_alg».proof.Proof.Gen.Kernel
import proofs.«167087_g2000006333966860_pallasbulk_249_2_alg».proof.Proof.Gen.Kernel.Frame
import proofs.«167087_g2000006333966860_pallasbulk_249_2_alg».proof.Proof.Gen.KernelIdeal
import proofs.«167087_g2000006333966860_pallasbulk_249_2_alg».proof.Proof.Gen.KernelIdeal.Frame
import proofs.«167087_g2000006333966860_pallasbulk_249_2_alg».proof.Proof.Gen.ReferenceIdeal
import proofs.«167087_g2000006333966860_pallasbulk_249_2_alg».proof.Proof.Gen.ReferenceIdeal.Frame
import proofs.«167087_g2000006333966860_pallasbulk_249_2_alg».proof.Proof.Gen.Pre_finite_inputs
import proofs.«167087_g2000006333966860_pallasbulk_249_2_alg».proof.Proof.Finite
import proofs.«167087_g2000006333966860_pallasbulk_249_2_alg».proof.Proof.KernelArray
import proofs.«167087_g2000006333966860_pallasbulk_249_2_alg».proof.Proof.RefArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ => Cert.ReferenceIdeal.Gen.frame m ρ

/-- No operation was rewritten by the idealisation: there is nothing to restate. -/
theorem preserves : Cert.preserves_Kernel_KernelIdeal := trivial

/-- From arguments that agree and are finite, both runs end with every row normalised group by group. -/
theorem algebraic : Cert.algebraic_KernelIdeal_ReferenceIdeal := by
  intro m ρ m' ρ' hpre hagree
  refine ⟨fun c => Cert.RowNorm.whole (m ((c.tc : Thread Cert.KernelIdeal.nD Cert.KernelIdeal.τ).loc Cert.KernelIdeal.main_arg0)),
    Cert.KernelSide.run m ρ (fun c i => Cert.KernelSide.Finite.arg_real m hpre c i), ?_⟩
  refine (θ_run Cert.ReferenceIdeal.defs _ _).mono (fun _ h c => ⟨(h c).1.trans ?_, (h c).2⟩) (Cert.RefSide.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
